-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S3200000 : Shape := ⟨1, ![3200000]⟩
abbrev S100000x16 : Shape := ⟨2, ![100000, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  bcast_S_S3200000 : S_.BroadcastsInDim S3200000 (![] : Fin 0 → Fin S3200000.rank)
  reducesTo_S3200000_S_d0 : S3200000.ReducesTo [0] S_
  bcast_S_S100000x16 : S_.BroadcastsInDim S100000x16 (![] : Fin 0 → Fin S100000x16.rank)
  reducesTo_S100000x16_S_d0_1 : S100000x16.ReducesTo [0, 1] S_

variable [Facts]

def fn_part2 {F : FTy → Type} [FloatOps F] (main_arg7 : FVec F S100000x16 .f32) (main_v33 : IVec S_ 1) : IVec S_ 1 :=
  let main_v34 : FVec F S100000x16 .f32 := Host.absf main_arg7
  let main_cst_12 : FVec F S_ .f32 := constant S_ .f32 0x7F800000#32
  let main_v35 : FVec F S100000x16 .f32 := broadcastInDim S100000x16 ![] bcast_S_S100000x16 main_cst_12
  let main_v36 : IVec S100000x16 1 := cmpf .olt main_v34 main_v35
  let main_c_13 : IVec S_ 1 := constantI S_ 1 1#1
  let main_v37 : IVec S_ 1 := (fun x v => Host.reduce IntOp.andi x v reducesTo_S100000x16_S_d0_1 h_S_) main_v36 main_c_13
  let main_v38 : IVec S_ 1 := andi main_v33 main_v37
  main_v38

def fn_part1 {F : FTy → Type} [FloatOps F] (main_arg4 : FVec F S40 .f32) (main_arg5 : FVec F S3200000 .f32) (main_arg6 : FVec F S100000x512 .f32) (main_arg7 : FVec F S100000x16 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S3200000 .f32 := Host.absf main_arg5
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  let main_v29 : FVec F S100000x512 .f32 := Host.absf main_arg6
  let main_cst_10 : FVec F S_ .f32 := constant S_ .f32 0x7F800000#32
  let main_v30 : FVec F S100000x512 .f32 := broadcastInDim S100000x512 ![] bcast_S_S100000x512 main_cst_10
  let main_v31 : IVec S100000x512 1 := cmpf .olt main_v29 main_v30
  let main_c_11 : IVec S_ 1 := constantI S_ 1 1#1
  let main_v32 : IVec S_ 1 := (fun x v => Host.reduce IntOp.andi x v reducesTo_S100000x512_S_d0_1 h_S_) main_v31 main_c_11
  let main_v33 : IVec S_ 1 := andi main_v28 main_v32
  fn_part2 (F := F) main_arg7 main_v33

def fn {F : FTy → Type} [FloatOps F] (main_arg0 : FVec F S100000x512 .f32) (main_arg1 : FVec F S512x16 .f32) (main_arg2 : FVec F S16 .f32) (main_arg3 : FVec F S16x40 .f32) (main_arg4 : FVec F S40 .f32) (main_arg5 : FVec F S3200000 .f32) (main_arg6 : FVec F S100000x512 .f32) (main_arg7 : FVec F S100000x16 .f32) (main_arg8 : IVec S3200000 32) (main_arg9 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_arg5 main_arg6 main_arg7 main_v13 main_v16
-- ==== Kernel.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S3200000 : Shape := ⟨1, ![3200000]⟩
abbrev S100000x16 : Shape := ⟨2, ![100000, 16]⟩
abbrev S2000x512 : Shape := ⟨2, ![2000, 512]⟩
abbrev S2000x16 : Shape := ⟨2, ![2000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x40 : Shape := ⟨2, ![100000, 40]⟩
abbrev S2000x40 : Shape := ⟨2, ![2000, 40]⟩
abbrev S3200000x40 : Shape := ⟨2, ![3200000, 40]⟩
abbrev S1x40 : Shape := ⟨2, ![1, 40]⟩

abbrev nBuf : Space → Nat
  | .hbm => 48
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S3200000, .f32⟩
  | .hbm, ⟨6, _⟩ => ⟨S100000x512, .f32⟩
  | .hbm, ⟨7, _⟩ => ⟨S100000x16, .f32⟩
  | .hbm, ⟨8, _⟩ => ⟨S3200000, .i32⟩
  | .hbm, ⟨9, _⟩ => ⟨S3200000, .i32⟩
  | .hbm, ⟨10, _⟩ => ⟨S100000x16, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x16, .f32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S1x16, .f32⟩
  | .hbm, ⟨28, _⟩ => ⟨S100000x40, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x40, .f32⟩
  | .hbm, ⟨39, _⟩ => ⟨S3200000x40, .f32⟩
  | .hbm, ⟨40, _⟩ => ⟨S3200000x40, .f32⟩
  | .hbm, ⟨41, _⟩ => ⟨S_, .f32⟩
  | .hbm, ⟨42, _⟩ => ⟨S100000x40, .f32⟩
  | .hbm, ⟨43, _⟩ => ⟨S3200000x1, .i32⟩
  | .hbm, ⟨44, _⟩ => ⟨S100000x40, .f32⟩
  | .hbm, ⟨45, _⟩ => ⟨S1x40, .f32⟩
  | .hbm, ⟨46, _⟩ => ⟨S100000x40, .f32⟩
  | .hbm, ⟨47, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S1x16, .f32⟩
  | .local _ .vmem, ⟨10, _⟩ => ⟨S2000x16, .f32⟩
  | .local _ .vmem, ⟨11, _⟩ => ⟨S2000x16, .f32⟩
  | .local _ .vmem, ⟨12, _⟩ => ⟨S16x40, .f32⟩
  | .local _ .vmem, ⟨13, _⟩ => ⟨S2000x40, .f32⟩
  | .local _ .vmem, ⟨14, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x40_S2000x40_1_0_0_1_n_n_wf : DotDims.WF S2000x16 S16x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .f32 = 32 ∨ (Rect.block (s := S512x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x40.size a ≤ S100000x40.size a
  hwx1_4 : ∀ i : grid1.Coords, EltTy.bits .f32 = 32 ∨ (Rect.block (s := S100000x40) S2000x40.size (cc1_transform_4 i) (hinb1_4 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S3200000, .f32⟩
  | .hbm, ⟨6, _⟩ => ⟨S100000x512, .f32⟩
  | .hbm, ⟨7, _⟩ => ⟨S100000x16, .f32⟩
  | .hbm, ⟨8, _⟩ => ⟨S3200000, .i32⟩
  | .hbm, ⟨9, _⟩ => ⟨S3200000, .i32⟩
  | .hbm, ⟨10, _⟩ => ⟨S_, .f32⟩
  | .hbm, ⟨11, _⟩ => ⟨S100000x512, .f32⟩
  | .hbm, ⟨12, _⟩ => ⟨S100000x512, .i1⟩
  | .hbm, ⟨13, _⟩ => ⟨S_, .f32⟩
  | .hbm, ⟨14, _⟩ => ⟨S_, .f32⟩
  | .hbm, ⟨15, _⟩ => ⟨S100000x512, .f32⟩
  | .hbm, ⟨16, _⟩ => ⟨S100000x512, .f32⟩
  | .hbm, ⟨17, _⟩ => ⟨S_, .f32⟩
  | .hbm, ⟨18, _⟩ => ⟨S100000x512, .f32⟩
  | .hbm, ⟨19, _⟩ => ⟨S100000x512, .f32⟩
  | .hbm, ⟨20, _⟩ => ⟨S100000x16, .f32⟩
  | .hbm, ⟨21, _⟩ => ⟨S3200000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x16, .f32⟩
  | .hbm, ⟨31, _⟩ => ⟨S3200000x16, .f32⟩
  | .hbm, ⟨32, _⟩ => ⟨S3200000x16, .f32⟩
  | .hbm, ⟨33, _⟩ => ⟨S_, .f32⟩
  | .hbm, ⟨34, _⟩ => ⟨S100000x16, .f32⟩
  | .hbm, ⟨35, _⟩ => ⟨S3200000x1, .i32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S_, .f32⟩
  | .hbm, ⟨44, _⟩ => ⟨S100000x16, .f32⟩
  | .hbm, ⟨45, _⟩ => ⟨S100000x16, .i1⟩
  | .hbm, ⟨46, _⟩ => ⟨S_, .f32⟩
  | .hbm, ⟨47, _⟩ => ⟨S_, .f32⟩
  | .hbm, ⟨48, _⟩ => ⟨S100000x16, .f32⟩
  | .hbm, ⟨49, _⟩ => ⟨S100000x16, .f32⟩
  | .hbm, ⟨50, _⟩ => ⟨S_, .f32⟩
  | .hbm, ⟨51, _⟩ => ⟨S100000x16, .f32⟩
  | .hbm, ⟨52, _⟩ => ⟨S100000x16, .f32⟩
  | .hbm, ⟨53, _⟩ => ⟨S100000x40, .f32⟩
  | .hbm, ⟨54, _⟩ => ⟨S3200000x1, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x40, .f32⟩
  | .hbm, ⟨64, _⟩ => ⟨S3200000x40, .f32⟩
  | .hbm, ⟨65, _⟩ => ⟨S3200000x40, .f32⟩
  | .hbm, ⟨66, _⟩ => ⟨S_, .f32⟩
  | .hbm, ⟨67, _⟩ => ⟨S100000x40, .f32⟩
  | .hbm, ⟨68, _⟩ => ⟨S3200000x1, .i32⟩
  | .hbm, ⟨69, _⟩ => ⟨S100000x40, .f32⟩
  | .hbm, ⟨70, _⟩ => ⟨S1x40, .f32⟩
  | .hbm, ⟨71, _⟩ => ⟨S100000x40, .f32⟩
  | .hbm, ⟨72, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_cst : Ref sig .tc := ⟨.hbm, 40, rfl⟩
abbrev main_call1_v0 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]

class Facts₀ : Prop where
  bcast_S_S100000x512 : S_.BroadcastsInDim S100000x512 (![] : Fin 0 → Fin S100000x512.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelRun.lean ====
/-
  The two-layer program's run, with its result named.

  The program is two gridded kernels among host operations: the first dense layer, the first aggregation over the
  edges, the second dense layer, the second aggregation and the output bias. Its buffers' contents at the four
  boundaries between these pieces are a fold from the launch memory; the last one, after the final host stretch,
  is what every buffer holds when the program returns. Here the run is stated with the result buffer at that
  last fold's contents (and the argument arrays unchanged); the modules that follow read the fold back to one
  function of the arguments.
-/
import proofs.«130245_j82068235092421_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at its reference, and the argument arrays are as launched. The segments, their chaining
    and the launch are the frame's; only the final reading differs: every unscoped buffer is read against the
    last boundary's contents, the result buffer among them. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.Layers.lean ====
/-
  The two dense layers of the network, as functions of their arguments, entry by entry, on the extended reals.

  A layer drops each input entry whose uniform draw is not below one half, multiplies the kept row by the weight
  matrix, and scales by two (the reciprocal of the keep probability). The second layer first adds the bias to the
  aggregated hidden features and clips them below at zero. One program applies the factor two to the product's
  entries, the other to the kept inputs before the product; the two agree because two is a non-negative number
  other than +∞, and such a factor moves across a finite sum of extended reals whatever the summands are.
-/
import Idealize.ShloMosaic.PureOps.Ideal.Laws
import Idealize.ShloMosaic.Lib.ValueIdx
import proofs.«130245_j82068235092421_2_alg».proof.Proof.LibGcnLaw

noncomputable section

open scoped BigOperators

namespace Cert.Layers

open Idealize.ShloMosaic Idealize.ShloMosaic.ValueIdx

/-- The keep threshold one half, the scale two and zero, as the programs' f32 words denote them. -/
abbrev half : EReal := Ideal.ofBits .f32 0x3F000000#32
abbrev two : EReal := Ideal.ofBits .f32 0x40000000#32
abbrev zero : EReal := Ideal.ofBits .f32 0x00000000#32

/-- The word of 2.0 denotes the real number two. -/
theorem two_eq : two = ((2 : ℝ) : EReal) := by
  simp [two, Ideal.ofBits, Ideal.ieee]
  first
    | (rw [← EReal.coe_mul]; norm_num)
    | (norm_cast; norm_num)
    | exact_mod_cast (by norm_num : (8388608 : ℝ) * ((2 : ℝ) ^ 22)⁻¹ = 2)

theorem two_nonneg : 0 ≤ two := by rw [two_eq]; exact_mod_cast (by norm_num : (0 : ℝ) ≤ 2)
theorem two_ne_top : two ≠ ⊤ := by rw [two_eq]; exact EReal.coe_ne_top _

/-- Dropout of one entry: the entry where the draw is below one half, zero elsewhere. -/
def keep (u x : EReal) : EReal := Scalar.select (Ideal.cmp .olt u half) x zero

/-- THE LAW that joins the two programs: scaling a row-by-column product by two is the product of the row scaled
    entry by entry. -/
theorem scale_sum {K : Nat} (a w : Fin K → EReal) : (∑ q, a q * w q) * two = ∑ q, a q * two * w q := by
  rw [mul_comm, Cert.GcnLaw.mul_sum _ two two_nonneg two_ne_top]
  refine Finset.sum_congr rfl fun q _ => ?_
  rw [← mul_assoc, mul_comm two (a q)]

/-- Entry (n, c) of the first layer over R rows: the kept row n of x against column c of the weights, doubled. -/
def dense1 {R : Nat} (x d : (⟨2, ![R, 512]⟩ : Shape).Idx → EReal) (w : (⟨2, ![512, 16]⟩ : Shape).Idx → EReal)
    (n : Fin R) (c : Fin 16) : EReal :=
  (∑ q : Fin 512, keep (d (ix2 n q)) (x (ix2 n q)) * w (ix2 q c)) * two

/-- The second layer's input at (n, q): the aggregated feature plus the bias, clipped below at zero, then dropped
    where the draw is not below one half. The bias arrives as a one-row matrix. -/
def act {R : Nat} (h : (⟨2, ![R, 16]⟩ : Shape).Idx → EReal) (b : (⟨2, ![1, 16]⟩ : Shape).Idx → EReal)
    (u : (⟨2, ![R, 16]⟩ : Shape).Idx → EReal) (n : Fin R) (q : Fin 16) : EReal :=
  keep (u (ix2 n q)) (max (h (ix2 n q) + b (ix2 (0 : Fin 1) q)) zero)

/-- Entry (n, c) of the second layer over R rows. -/
def dense2 {R : Nat} (h : (⟨2, ![R, 16]⟩ : Shape).Idx → EReal) (b : (⟨2, ![1, 16]⟩ : Shape).Idx → EReal)
    (u : (⟨2, ![R, 16]⟩ : Shape).Idx → EReal) (w : (⟨2, ![16, 40]⟩ : Shape).Idx → EReal) (n : Fin R) (c : Fin 40) : EReal :=
  (∑ q : Fin 16, act h b u n q * w (ix2 q c)) * two

/-- The layers as whole arrays. -/
def layer1 {R : Nat} (x d : (⟨2, ![R, 512]⟩ : Shape).Idx → EReal) (w : (⟨2, ![512, 16]⟩ : Shape).Idx → EReal) :
    (⟨2, ![R, 16]⟩ : Shape).Idx → EReal := fun i => dense1 x d w (i 0) (i 1)

def layer2 {R : Nat} (h : (⟨2, ![R, 16]⟩ : Shape).Idx → EReal) (b : (⟨2, ![1, 16]⟩ : Shape).Idx → EReal)
    (u : (⟨2, ![R, 16]⟩ : Shape).Idx → EReal) (w : (⟨2, ![16, 40]⟩ : Shape).Idx → EReal) :
    (⟨2, ![R, 40]⟩ : Shape).Idx → EReal := fun i => dense2 h b u w (i 0) (i 1)

theorem layer1_apply {R : Nat} (x d : (⟨2, ![R, 512]⟩ : Shape).Idx → EReal) (w : (⟨2, ![512, 16]⟩ : Shape).Idx → EReal)
    (n : Fin R) (c : Fin 16) : layer1 x d w (ix2 n c) = dense1 x d w n c := rfl

theorem layer2_apply {R : Nat} (h : (⟨2, ![R, 16]⟩ : Shape).Idx → EReal) (b : (⟨2, ![1, 16]⟩ : Shape).Idx → EReal)
    (u : (⟨2, ![R, 16]⟩ : Shape).Idx → EReal) (w : (⟨2, ![16, 40]⟩ : Shape).Idx → EReal) (n : Fin R) (c : Fin 40) :
    layer2 h b u w (ix2 n c) = dense2 h b u w n c := rfl

end Cert.Layers

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.KernelBodies.lean ====
/-
  What each kernel body stores, entry by entry.

  The first body takes a block of 2000 rows of the draws and of x and the whole weight matrix, and stores the
  first layer of those 2000 rows; the second takes 2000 rows of the aggregated features and of the draws, the
  bias row and the second weight matrix, and stores the second layer of those rows. Rounding the product's
  operands to bf16 is the identity on the extended reals, and the product into a zero accumulator is the plain
  row-by-column sum.
-/
import proofs.«130245_j82068235092421_2_alg».proof.Proof.Gen.KernelIdeal.Skeleton
import proofs.«130245_j82068235092421_2_alg».proof.Proof.Layers
import proofs.«130245_j82068235092421_2_alg».proof.Proof.LibPlainDot
import Idealize.ShloMosaic.Lib.Pipeline.Value
import Idealize.ShloMosaic.Lib.ValueLayout
import Idealize.ShloMosaic.Lib.ValueIdx

noncomputable section

open scoped BigOperators

namespace Cert.KernelIdeal.Bodies

open Cert.KernelIdeal Cert.KernelIdeal.Gen Idealize.ShloMosaic Idealize.ShloMosaic.ValueIdx

/-- The first product's dimension numbers are a plain matrix product's. -/
theorem plain1 : Cert.PlainDot.IsPlain dot_S2000x512_S512x16_S2000x16_1_0_0_1_n_n := ⟨rfl, rfl, rfl, rfl, rfl, rfl⟩
/-- So are the second's. -/
theorem plain2 : Cert.PlainDot.IsPlain dot_S2000x16_S16x40_S2000x40_1_0_0_1_n_n := ⟨rfl, rfl, rfl, rfl, rfl, rfl⟩

/-- The first body's stored value at (p, c) is the first layer of its 2000 rows. -/
theorem stored1_apply (dblk xblk : Vec Ideal S2000x512 .f32) (wblk : Vec Ideal S512x16 .f32) (p : Fin 2000) (c : Fin 16) :
    k0_pay1 (F := Ideal) dblk xblk wblk (ix2 p c) = Cert.Layers.dense1 (R := 2000) xblk dblk wblk p c := by
  unfold k0_pay1 Cert.Layers.dense1
  refine congrArg (· * Cert.Layers.two) ?_
  refine (Cert.PlainDot.matmul_zero_apply plain1 none _ _ p c).trans ?_
  rfl

/-- The second body's stored value at (p, c) is the second layer of its 2000 rows. -/
theorem stored2_apply (hblk : Vec Ideal S2000x16 .f32) (brow : Vec Ideal S1x16 .f32) (ublk : Vec Ideal S2000x16 .f32)
    (wblk : Vec Ideal S16x40 .f32) (p : Fin 2000) (c : Fin 40) :
    k1_pay1 (F := Ideal) hblk brow ublk wblk (ix2 p c) = Cert.Layers.dense2 (R := 2000) hblk brow ublk wblk p c := by
  unfold k1_pay1 Cert.Layers.dense2
  refine congrArg (· * Cert.Layers.two) ?_
  refine (Cert.PlainDot.matmul_zero_apply plain2 none _ _ p c).trans ?_
  refine Finset.sum_congr rfl fun q _ => ?_
  refine congrArg (· * wblk (ix2 q c)) ?_
  unfold Cert.Layers.act Cert.Layers.keep
  refine congrArg (fun z => Scalar.select (Ideal.cmp .olt (ublk (ix2 p q)) Cert.Layers.half) (max z Cert.Layers.zero) Cert.Layers.zero) ?_
  have e1 : shapeCast S2000x16 hblk shapeCasts_S2000x16_S2000x16 (ix2 p q) = hblk (ix2 p q) :=
    congrFun (shapeCast_self hblk _) _
  have e2 : broadcastTo S2000x16 (shapeCast S1x16 brow shapeCasts_S1x16_S1x16) broadcasts_S1x16_S2000x16 (ix2 p q)
      = brow (ix2 (0 : Fin 1) q) :=
    (broadcastTo_1b_ab_apply _ _ p q).trans (congrFun (shapeCast_self brow _) _)
  exact congrArg₂ (· + ·) e1 e2

end Cert.KernelIdeal.Bodies

end
-- ==== Proof.FirstArray.lean ====
/-
  The first kernel's output array after its run: the first layer of the whole arrays.

  The grid has 50 points; point t reads rows 2000·t … 2000·t + 1999 of x and of the draws and the whole weight
  matrix, and writes back rows 2000·t … 2000·t + 1999 of the output. What point t writes back is those rows of
  the first layer of the whole arrays, and the 50 blocks tile the output, so the output array ends holding the
  first layer. Everything is stated at the buffer contents V the region is entered with.
-/
import proofs.«130245_j82068235092421_2_alg».proof.Proof.Gen.KernelIdeal.Frame
import proofs.«130245_j82068235092421_2_alg».proof.Proof.KernelBodies
import Idealize.ShloMosaic.Lib.Pipeline.Value

set_option maxRecDepth 16384

noncomputable section

open scoped BigOperators

namespace Cert.KernelIdeal.FirstArray

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the row blocks move with the point, the weights stay. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := lt_of_lt_of_eq t.isLt N_0

/-- Row p of point t's block is row 2000·t + p of the array. -/
def row (t : Fin cfg0.N) (p : Fin 2000) : Fin 100000 := ⟨t.val * 2000 + p.val, by have := point_lt t; omega⟩

/-- The block of x at point t, read at (p, q). -/
theorem read_x (c : Dev nD) (t : Fin cfg0.N) (p : Fin 2000) (q : Fin 512) :
    iblk0 V c 0 t (ix2 p q) = (V c main_arg0 : S100000x512.Idx → EReal) (ix2 (row t p) q) := by
  obtain ⟨e0, e1, -⟩ := index_maps t
  show V c main_arg0 (((cfg0.win 0).blk t).view.emb (ix2 p q)) = V c main_arg0 (ix2 (row t p) q)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * q.val = q.val; omega

/-- The block of the draws at point t, read at (p, q). -/
theorem read_d (c : Dev nD) (t : Fin cfg0.N) (p : Fin 2000) (q : Fin 512) :
    iblk0 V c 1 t (ix2 p q) = (V c main_arg6 : S100000x512.Idx → EReal) (ix2 (row t p) q) := by
  obtain ⟨-, -, e0, e1, -⟩ := index_maps t
  show V c main_arg6 (((cfg0.win 1).blk t).view.emb (ix2 p q)) = V c main_arg6 (ix2 (row t p) q)
  refine congrArg (V c main_arg6) (funext fun a => Fin.ext ?_)
  match a with
  | ⟨0, _⟩ => show win0_1.index t (0 : Fin 2) * 2000 + 1 * p.val = t.val * 2000 + p.val; omega
  | ⟨1, _⟩ => show win0_1.index t (1 : Fin 2) * 512 + 1 * q.val = q.val; omega

/-- The weights' one block is the whole matrix. -/
theorem read_w (c : Dev nD) (t : Fin cfg0.N) (q : Fin 512) (j : Fin 16) :
    iblk0 V c 2 t (ix2 q j) = (V c main_arg1 : S512x16.Idx → EReal) (ix2 q j) := by
  obtain ⟨-, -, -, -, e0, e1, -⟩ := index_maps t
  show V c main_arg1 (((cfg0.win 2).blk t).view.emb (ix2 q j)) = V c main_arg1 (ix2 q j)
  refine congrArg (V c main_arg1) (funext fun a => Fin.ext ?_)
  match a with
  | ⟨0, _⟩ => show win0_2.index t (0 : Fin 2) * 512 + 1 * q.val = q.val; omega
  | ⟨1, _⟩ => show win0_2.index t (1 : Fin 2) * 16 + 1 * j.val = j.val; omega

/-- Where entry (p, j) of point t's output block sits in the output array. -/
theorem out_emb (t : Fin cfg0.N) (p : Fin 2000) (j : Fin 16) :
    ((cfg0.win 3).blk t).view.emb (ix2 p j) = (ix2 (row t p) j : S100000x16.Idx) := by
  obtain ⟨-, -, -, -, -, -, e0, e1⟩ := index_maps t
  refine funext fun a => Fin.ext ?_
  match a with
  | ⟨0, _⟩ => show win0_3.index t (0 : Fin 2) * 2000 + 1 * p.val = t.val * 2000 + p.val; omega
  | ⟨1, _⟩ => show win0_3.index t (1 : Fin 2) * 16 + 1 * j.val = j.val; omega

/-- WHAT POINT t WRITES BACK: its rows of the first layer of the whole arrays. -/
theorem written_back (c : Dev nD) (t : Fin cfg0.N) :
    (dat0 V c).flushed 3 t = ((cfg0.win 3).blk t).view.read (Elt Ideal)
      (Cert.Layers.layer1 (R := 100000) (V c main_arg0) (V c main_arg6) (V c main_arg1)) := by
  show (cfg0.win 3).cut (grid0.coords t) ((dat0 V c).after 3 t) = _
  rw [after0_3]
  unfold out0_3
  rw [View.canon_unit_zero offsets_zero]
  simp only [View.ld_unit_zero (S := S2000x512) offsets_zero, View.ld_unit_zero (S := S512x16) offsets_zero]
  funext y
  obtain ⟨p, j, rfl⟩ : ∃ (p : Fin 2000) (j : Fin 16), y = ix2 p j := ⟨y 0, y 1, eq_ix2 y⟩
  show k0_pay1 (F := Ideal) (iblk0 V c 1 t) (iblk0 V c 0 t) (iblk0 V c 2 t) (ix2 p j)
    = Cert.Layers.layer1 (R := 100000) (V c main_arg0) (V c main_arg6) (V c main_arg1) (((cfg0.win 3).blk t).view.emb (ix2 p j))
  rw [out_emb t p j, Cert.Layers.layer1_apply]
  refine (Cert.KernelIdeal.Bodies.stored1_apply (iblk0 V c 1 t) (iblk0 V c 0 t) (iblk0 V c 2 t) p j).trans ?_
  unfold Cert.Layers.dense1
  refine congrArg (· * Cert.Layers.two) (Finset.sum_congr rfl fun q _ => ?_)
  rw [read_x V c t p q, read_d V c t p q, read_w V c t q j]

/-- An index of the output array is in point t's block iff its row is among the point's 2000 rows. -/
theorem mem_block (t : Fin cfg0.N) (i : S100000x16.Idx) :
    i ∈ ((cfg0.win 3).blk t).view.set ↔ ∀ a : Fin 2, win0_3.index t a * S2000x16.size a ≤ (i a).val
      ∧ (i a).val < win0_3.index t a * S2000x16.size a + S2000x16.size a := by
  show i ∈ ((View.whole main_v0).slice (win0_3.rect t)).set ↔ _
  rw [View.set_slice_whole, Rect.mem_set_unit]
  exact Iff.rfl

/-- THE COVER: row r is written back by point r / 2000. -/
theorem covered (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨-, -, -, -, -, -, e0, e1⟩ := index_maps t
  have ht : t.val = (i 0).val / 2000 := rfl
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 16 ≤ (i 1).val ∧ (i 1).val < win0_3.index t (1 : Fin 2) * 16 + 16
    omega

/-- THE OUTPUT ARRAY after the run is the first layer of the arrays the region was entered with. -/
theorem array_eq (c : Dev nD) :
    (dat0 V c).arrAt 3 cfg0.N = Cert.Layers.layer1 (R := 100000) (V c main_arg0) (V c main_arg6) (V c main_arg1) :=
  (dat0 V c).arrAt_eq_of_cover 3 _ (fun t _ => written_back V c t) covered

end Cert.KernelIdeal.FirstArray

end
-- ==== Proof.SecondArray.lean ====
/-
  The second kernel's output array after its run: the second layer of the whole arrays.

  The grid has 50 points; point t reads rows 2000·t … 2000·t + 1999 of the aggregated hidden features and of the
  draws, the bias row and the whole second weight matrix, and writes back rows 2000·t … 2000·t + 1999 of the
  output. What point t writes back is those rows of the second layer of the whole arrays, and the 50 blocks tile
  the output, so the output array ends holding the second layer. Everything is stated at the buffer contents V
  the region is entered with.
-/
import proofs.«130245_j82068235092421_2_alg».proof.Proof.Gen.KernelIdeal.Frame
import proofs.«130245_j82068235092421_2_alg».proof.Proof.KernelBodies
import Idealize.ShloMosaic.Lib.Pipeline.Value

set_option maxRecDepth 16384

noncomputable section

open scoped BigOperators

namespace Cert.KernelIdeal.SecondArray

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the row blocks move with the point, the bias row and the weights stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 50 := lt_of_lt_of_eq t.isLt N_1

/-- Row p of point t's block is row 2000·t + p of the array. -/
def row (t : Fin cfg1.N) (p : Fin 2000) : Fin 100000 := ⟨t.val * 2000 + p.val, by have := point_lt t; omega⟩

/-- The block of hidden features at point t, read at (p, q). -/
theorem read_h (c : Dev nD) (t : Fin cfg1.N) (p : Fin 2000) (q : Fin 16) :
    iblk1 V c 0 t (ix2 p q) = (V c main_v13 : S100000x16.Idx → EReal) (ix2 (row t p) q) := by
  obtain ⟨e0, e1, -⟩ := index_maps t
  show V c main_v13 (((cfg1.win 0).blk t).view.emb (ix2 p q)) = V c main_v13 (ix2 (row t p) q)
  refine congrArg (V c main_v13) (funext fun a => Fin.ext ?_)
  match a with
  | ⟨0, _⟩ => show win1_0.index t (0 : Fin 2) * 2000 + 1 * p.val = t.val * 2000 + p.val; omega
  | ⟨1, _⟩ => show win1_0.index t (1 : Fin 2) * 16 + 1 * q.val = q.val; omega

/-- The bias row's one block is the whole row. -/
theorem read_b (c : Dev nD) (t : Fin cfg1.N) (u : Fin 1) (q : Fin 16) :
    iblk1 V c 1 t (ix2 u q) = (V c main_v14 : S1x16.Idx → EReal) (ix2 u q) := by
  obtain ⟨-, -, e0, e1, -⟩ := index_maps t
  show V c main_v14 (((cfg1.win 1).blk t).view.emb (ix2 u q)) = V c main_v14 (ix2 u q)
  refine congrArg (V c main_v14) (funext fun a => Fin.ext ?_)
  match a with
  | ⟨0, _⟩ => show win1_1.index t (0 : Fin 2) * 1 + 1 * u.val = u.val; omega
  | ⟨1, _⟩ => show win1_1.index t (1 : Fin 2) * 16 + 1 * q.val = q.val; omega

/-- The block of the draws at point t, read at (p, q). -/
theorem read_u (c : Dev nD) (t : Fin cfg1.N) (p : Fin 2000) (q : Fin 16) :
    iblk1 V c 2 t (ix2 p q) = (V c main_arg7 : S100000x16.Idx → EReal) (ix2 (row t p) q) := by
  obtain ⟨-, -, -, -, e0, e1, -⟩ := index_maps t
  show V c main_arg7 (((cfg1.win 2).blk t).view.emb (ix2 p q)) = V c main_arg7 (ix2 (row t p) q)
  refine congrArg (V c main_arg7) (funext fun a => Fin.ext ?_)
  match a with
  | ⟨0, _⟩ => show win1_2.index t (0 : Fin 2) * 2000 + 1 * p.val = t.val * 2000 + p.val; omega
  | ⟨1, _⟩ => show win1_2.index t (1 : Fin 2) * 16 + 1 * q.val = q.val; omega

/-- The weights' one block is the whole matrix. -/
theorem read_w (c : Dev nD) (t : Fin cfg1.N) (q : Fin 16) (j : Fin 40) :
    iblk1 V c 3 t (ix2 q j) = (V c main_arg3 : S16x40.Idx → EReal) (ix2 q j) := by
  obtain ⟨-, -, -, -, -, -, e0, e1, -⟩ := index_maps t
  show V c main_arg3 (((cfg1.win 3).blk t).view.emb (ix2 q j)) = V c main_arg3 (ix2 q j)
  refine congrArg (V c main_arg3) (funext fun a => Fin.ext ?_)
  match a with
  | ⟨0, _⟩ => show win1_3.index t (0 : Fin 2) * 16 + 1 * q.val = q.val; omega
  | ⟨1, _⟩ => show win1_3.index t (1 : Fin 2) * 40 + 1 * j.val = j.val; omega

/-- Where entry (p, j) of point t's output block sits in the output array. -/
theorem out_emb (t : Fin cfg1.N) (p : Fin 2000) (j : Fin 40) :
    ((cfg1.win 4).blk t).view.emb (ix2 p j) = (ix2 (row t p) j : S100000x40.Idx) := by
  obtain ⟨-, -, -, -, -, -, -, -, e0, e1⟩ := index_maps t
  refine funext fun a => Fin.ext ?_
  match a with
  | ⟨0, _⟩ => show win1_4.index t (0 : Fin 2) * 2000 + 1 * p.val = t.val * 2000 + p.val; omega
  | ⟨1, _⟩ => show win1_4.index t (1 : Fin 2) * 40 + 1 * j.val = j.val; omega

/-- WHAT POINT t WRITES BACK: its rows of the second layer of the whole arrays. -/
theorem written_back (c : Dev nD) (t : Fin cfg1.N) :
    (dat1 V c).flushed 4 t = ((cfg1.win 4).blk t).view.read (Elt Ideal)
      (Cert.Layers.layer2 (R := 100000) (V c main_v13) (V c main_v14) (V c main_arg7) (V c main_arg3)) := by
  show (cfg1.win 4).cut (grid1.coords t) ((dat1 V c).after 4 t) = _
  rw [after1_4]
  unfold out1_4
  rw [View.canon_unit_zero offsets_zero]
  simp only [View.ld_unit_zero (S := S2000x16) offsets_zero, View.ld_unit_zero (S := S1x16) offsets_zero,
    View.ld_unit_zero (S := S16x40) offsets_zero]
  funext y
  obtain ⟨p, j, rfl⟩ : ∃ (p : Fin 2000) (j : Fin 40), y = ix2 p j := ⟨y 0, y 1, eq_ix2 y⟩
  show k1_pay1 (F := Ideal) (iblk1 V c 0 t) (iblk1 V c 1 t) (iblk1 V c 2 t) (iblk1 V c 3 t) (ix2 p j)
    = Cert.Layers.layer2 (R := 100000) (V c main_v13) (V c main_v14) (V c main_arg7) (V c main_arg3)
        (((cfg1.win 4).blk t).view.emb (ix2 p j))
  rw [out_emb t p j, Cert.Layers.layer2_apply]
  refine (Cert.KernelIdeal.Bodies.stored2_apply (iblk1 V c 0 t) (iblk1 V c 1 t) (iblk1 V c 2 t) (iblk1 V c 3 t) p j).trans ?_
  unfold Cert.Layers.dense2 Cert.Layers.act
  refine congrArg (· * Cert.Layers.two) (Finset.sum_congr rfl fun q _ => ?_)
  rw [read_h V c t p q, read_b V c t 0 q, read_u V c t p q, read_w V c t q j]

/-- An index of the output array is in point t's block iff its row is among the point's 2000 rows. -/
theorem mem_block (t : Fin cfg1.N) (i : S100000x40.Idx) :
    i ∈ ((cfg1.win 4).blk t).view.set ↔ ∀ a : Fin 2, win1_4.index t a * S2000x40.size a ≤ (i a).val
      ∧ (i a).val < win1_4.index t a * S2000x40.size a + S2000x40.size a := by
  show i ∈ ((View.whole main_v15).slice (win1_4.rect t)).set ↔ _
  rw [View.set_slice_whole, Rect.mem_set_unit]
  exact Iff.rfl

/-- THE COVER: row r is written back by point r / 2000. -/
theorem covered (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  have hN : cfg1.N = 50 := N_1
  let t : Fin cfg1.N := ⟨(i 0).val / 2000, by rw [hN]; omega⟩
  obtain ⟨-, -, -, -, -, -, -, -, e0, e1⟩ := index_maps t
  have ht : t.val = (i 0).val / 2000 := rfl
  refine ⟨t, flush1_4 t, ?_⟩
  rw [mem_block]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 40 ≤ (i 1).val ∧ (i 1).val < win1_4.index t (1 : Fin 2) * 40 + 40
    omega

/-- THE OUTPUT ARRAY after the run is the second layer of the arrays the region was entered with. -/
theorem array_eq (c : Dev nD) :
    (dat1 V c).arrAt 4 cfg1.N
      = Cert.Layers.layer2 (R := 100000) (V c main_v13) (V c main_v14) (V c main_arg7) (V c main_arg3) :=
  (dat1 V c).arrAt_eq_of_cover 4 _ (fun t _ => written_back V c t) covered

end Cert.KernelIdeal.SecondArray

end
-- ==== Proof.KernelValue.lean ====
/-
  The program's result as one function of its arguments.

  Between the two kernels, and after the second, the host aggregates over the edges: each edge (r, c, v) adds v times
  row c of the features into row r of a zero array (a column index below zero counts from the end); the last stretch
  also adds the output bias to every row. These stretches are carried as functions of the arrays they read and are
  never opened. Reading the buffers' contents back from the last boundary to the launch: the result is the output
  bias added to the aggregate of the second layer of (the aggregate of the first layer of x, the draws and the
  first weights; the bias as a row; the second draws; the second weights).
-/
import proofs.«130245_j82068235092421_2_alg».proof.Proof.KernelRun
import proofs.«130245_j82068235092421_2_alg».proof.Proof.FirstArray
import proofs.«130245_j82068235092421_2_alg».proof.Proof.SecondArray
import Idealize.ShloMosaic.Lib.StableHlo.Run

set_option maxRecDepth 16384

noncomputable section

namespace Cert.KernelIdeal.Folded

open Cert.KernelIdeal Cert.KernelIdeal.Gen Idealize.ShloMosaic Idealize.ShloMosaic.TcCoe Idealize.ShloMosaic.StableHlo
open Idealize.SL.Sem

section Stretches
variable {F : FTy → Type} [FloatOps F]

/-- The column index of each edge, one that is negative counted from the end. -/
def wrapped (ec : (⟨S3200000, .i32⟩ : BufTy).Contents (Elt F)) : (⟨S3200000, .i32⟩ : BufTy).Contents (Elt F) :=
  select (cmpi .slt ec (broadcastInDim S3200000 ![] bcast_S_S3200000 (constantI S_ 32 0#32)))
    (addi ec (broadcastInDim S3200000 ![] bcast_S_S3200000 (constantI S_ 32 100000#32))) ec

/-- The aggregation of 16-wide features over the edges. -/
def aggregate16 (ev : (⟨S3200000, .f32⟩ : BufTy).Contents (Elt F)) (er ec : (⟨S3200000, .i32⟩ : BufTy).Contents (Elt F)) (h : (⟨S100000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 er)
    (mulf (broadcastInDim S3200000x16 ![0, 1] bcast_S3200000x1_S3200000x16_0_1 (broadcastInDim S3200000x1 ![0] bcast_S3200000_S3200000x1_0 ev))
      (Host.gather gather_S100000x16_S3200000x1_S3200000x16_1_0_n_n_0_1_116 h
        (broadcastInDim S3200000x1 ![0] bcast_S3200000_S3200000x1_0 (wrapped ec))))

/-- The aggregation of 40-wide features over the edges. -/
def aggregate40 (ev : (⟨S3200000, .f32⟩ : BufTy).Contents (Elt F)) (er ec : (⟨S3200000, .i32⟩ : BufTy).Contents (Elt F)) (o : (⟨S100000x40, .f32⟩ : BufTy).Contents (Elt F)) :
    (⟨S100000x40, .f32⟩ : BufTy).Contents (Elt F) :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 er)
    (mulf (broadcastInDim S3200000x40 ![0, 1] bcast_S3200000x1_S3200000x40_0_1 (broadcastInDim S3200000x1 ![0] bcast_S3200000_S3200000x1_0 ev))
      (Host.gather gather_S100000x40_S3200000x1_S3200000x40_1_0_n_n_0_1_140 o
        (broadcastInDim S3200000x1 ![0] bcast_S3200000_S3200000x1_0 (wrapped ec))))

/-- The output bias added to every row. -/
def biased (b : (⟨S40, .f32⟩ : BufTy).Contents (Elt F)) (o : (⟨S100000x40, .f32⟩ : BufTy).Contents (Elt F)) : (⟨S100000x40, .f32⟩ : BufTy).Contents (Elt F) :=
  addf o (broadcastInDim S100000x40 ![0, 1] bcast_S1x40_S100000x40_0_1 (broadcastInDim S1x40 ![1] bcast_S40_S1x40_1 b))

/-- The hidden bias laid out as a row. -/
def biasRow (b : (⟨S16, .f32⟩ : BufTy).Contents (Elt F)) : (⟨S1x16, .f32⟩ : BufTy).Contents (Elt F) := shapeCast S1x16 b shapeCasts_S16_S1x16

end Stretches

variable (m : (ℓ : Loc nD τ sig) → Buf (Elt Ideal) ℓ) (ρ : Dev nD → PrngReg) (c : Dev nD)

/-! ## An argument no kernel writes, read at each boundary -/

theorem first_exit_arg2 : W1 m ρ c (Proc.devRef .tc main_arg2) = m ((c : Thread nD τ).loc main_arg2) := (W1_of_ne m ρ c main_arg2 (by decide)).trans rfl
theorem first_exit_arg3 : W1 m ρ c (Proc.devRef .tc main_arg3) = m ((c : Thread nD τ).loc main_arg3) := (W1_of_ne m ρ c main_arg3 (by decide)).trans rfl
theorem first_exit_arg4 : W1 m ρ c (Proc.devRef .tc main_arg4) = m ((c : Thread nD τ).loc main_arg4) := (W1_of_ne m ρ c main_arg4 (by decide)).trans rfl
theorem first_exit_arg5 : W1 m ρ c (Proc.devRef .tc main_arg5) = m ((c : Thread nD τ).loc main_arg5) := (W1_of_ne m ρ c main_arg5 (by decide)).trans rfl
theorem first_exit_arg7 : W1 m ρ c (Proc.devRef .tc main_arg7) = m ((c : Thread nD τ).loc main_arg7) := (W1_of_ne m ρ c main_arg7 (by decide)).trans rfl
theorem first_exit_arg8 : W1 m ρ c (Proc.devRef .tc main_arg8) = m ((c : Thread nD τ).loc main_arg8) := (W1_of_ne m ρ c main_arg8 (by decide)).trans rfl
theorem first_exit_arg9 : W1 m ρ c (Proc.devRef .tc main_arg9) = m ((c : Thread nD τ).loc main_arg9) := (W1_of_ne m ρ c main_arg9 (by decide)).trans rfl

/-- The first kernel's output array at its exit: the first layer of the launch arrays. -/
theorem first_exit_out : W1 m ρ c (Proc.devRef .tc main_v0)
    = Cert.Layers.layer1 (R := 100000) (m ((c : Thread nD τ).loc main_arg0)) (m ((c : Thread nD τ).loc main_arg6)) (m ((c : Thread nD τ).loc main_arg1)) :=
  (W1_arr m ρ c 3).trans (Cert.KernelIdeal.FirstArray.array_eq (V0 m ρ) c)

set_option maxHeartbeats 2000000 in
theorem second_entry_arg3 : V2 m ρ c main_arg3 = m ((c : Thread nD τ).loc main_arg3) := by
  dsimp only [V2, W2]; after_results; exact first_exit_arg3 m ρ c
set_option maxHeartbeats 2000000 in
theorem second_entry_arg4 : W2 m ρ c (Proc.devRef .tc main_arg4) = m ((c : Thread nD τ).loc main_arg4) := by
  dsimp only [W2]; after_results; exact first_exit_arg4 m ρ c
set_option maxHeartbeats 2000000 in
theorem second_entry_arg5 : W2 m ρ c (Proc.devRef .tc main_arg5) = m ((c : Thread nD τ).loc main_arg5) := by
  dsimp only [W2]; after_results; exact first_exit_arg5 m ρ c
set_option maxHeartbeats 2000000 in
theorem second_entry_arg7 : V2 m ρ c main_arg7 = m ((c : Thread nD τ).loc main_arg7) := by
  dsimp only [V2, W2]; after_results; exact first_exit_arg7 m ρ c
set_option maxHeartbeats 2000000 in
theorem second_entry_arg8 : W2 m ρ c (Proc.devRef .tc main_arg8) = m ((c : Thread nD τ).loc main_arg8) := by
  dsimp only [W2]; after_results; exact first_exit_arg8 m ρ c
set_option maxHeartbeats 2000000 in
theorem second_entry_arg9 : W2 m ρ c (Proc.devRef .tc main_arg9) = m ((c : Thread nD τ).loc main_arg9) := by
  dsimp only [W2]; after_results; exact first_exit_arg9 m ρ c

set_option maxHeartbeats 2000000 in
/-- The hidden features the second kernel is entered with: the first layer, aggregated over the edges. -/
theorem second_entry_hidden : V2 m ρ c main_v13
    = aggregate16 (m ((c : Thread nD τ).loc main_arg5)) (m ((c : Thread nD τ).loc main_arg8)) (m ((c : Thread nD τ).loc main_arg9))
        (Cert.Layers.layer1 (R := 100000) (m ((c : Thread nD τ).loc main_arg0)) (m ((c : Thread nD τ).loc main_arg6)) (m ((c : Thread nD τ).loc main_arg1))) := by
  dsimp only [V2, W2]
  after_results
  rw [first_exit_out, first_exit_arg5, first_exit_arg8, first_exit_arg9]
  rfl

set_option maxHeartbeats 2000000 in
/-- The bias the second kernel is entered with: the hidden bias as a row. -/
theorem second_entry_bias : V2 m ρ c main_v14 = biasRow (m ((c : Thread nD τ).loc main_arg2)) := by
  dsimp only [V2, W2]
  after_results
  rw [first_exit_arg2]
  rfl

/-- The second kernel's output array at its exit: the second layer of what it was entered with. -/
theorem second_exit_out : W3 m ρ c (Proc.devRef .tc main_v15)
    = Cert.Layers.layer2 (R := 100000)
        (aggregate16 (m ((c : Thread nD τ).loc main_arg5)) (m ((c : Thread nD τ).loc main_arg8)) (m ((c : Thread nD τ).loc main_arg9))
          (Cert.Layers.layer1 (R := 100000) (m ((c : Thread nD τ).loc main_arg0)) (m ((c : Thread nD τ).loc main_arg6)) (m ((c : Thread nD τ).loc main_arg1))))
        (biasRow (m ((c : Thread nD τ).loc main_arg2))) (m ((c : Thread nD τ).loc main_arg7)) (m ((c : Thread nD τ).loc main_arg3)) := by
  refine ((W3_arr m ρ c 4).trans (Cert.KernelIdeal.SecondArray.array_eq (V2 m ρ) c)).trans ?_
  rw [second_entry_hidden, second_entry_bias, second_entry_arg7, second_entry_arg3]

theorem second_exit_arg4 : W3 m ρ c (Proc.devRef .tc main_arg4) = m ((c : Thread nD τ).loc main_arg4) := (W3_of_ne m ρ c main_arg4 (by decide)).trans (second_entry_arg4 m ρ c)
theorem second_exit_arg5 : W3 m ρ c (Proc.devRef .tc main_arg5) = m ((c : Thread nD τ).loc main_arg5) := (W3_of_ne m ρ c main_arg5 (by decide)).trans (second_entry_arg5 m ρ c)
theorem second_exit_arg8 : W3 m ρ c (Proc.devRef .tc main_arg8) = m ((c : Thread nD τ).loc main_arg8) := (W3_of_ne m ρ c main_arg8 (by decide)).trans (second_entry_arg8 m ρ c)
theorem second_exit_arg9 : W3 m ρ c (Proc.devRef .tc main_arg9) = m ((c : Thread nD τ).loc main_arg9) := (W3_of_ne m ρ c main_arg9 (by decide)).trans (second_entry_arg9 m ρ c)

/-- The program's result, as a function of the launch arrays. -/
def result : (⟨S100000x40, .f32⟩ : BufTy).Contents (Elt Ideal) :=
  biased (m ((c : Thread nD τ).loc main_arg4))
    (aggregate40 (m ((c : Thread nD τ).loc main_arg5)) (m ((c : Thread nD τ).loc main_arg8)) (m ((c : Thread nD τ).loc main_arg9))
      (Cert.Layers.layer2 (R := 100000)
        (aggregate16 (m ((c : Thread nD τ).loc main_arg5)) (m ((c : Thread nD τ).loc main_arg8)) (m ((c : Thread nD τ).loc main_arg9))
          (Cert.Layers.layer1 (R := 100000) (m ((c : Thread nD τ).loc main_arg0)) (m ((c : Thread nD τ).loc main_arg6)) (m ((c : Thread nD τ).loc main_arg1))))
        (biasRow (m ((c : Thread nD τ).loc main_arg2))) (m ((c : Thread nD τ).loc main_arg7)) (m ((c : Thread nD τ).loc main_arg3))))

set_option maxHeartbeats 2000000 in
/-- THE LAST BOUNDARY'S CONTENTS at the result buffer are that function. -/
theorem last_boundary : W4 m ρ c (Proc.devRef .tc main_v31) = result m c := by
  dsimp only [W4]
  after_results
  rw [second_exit_out, second_exit_arg4, second_exit_arg5, second_exit_arg8, second_exit_arg9]
  rfl

/-- THE RUN: every weakly fair execution terminates with the result buffer at that function of the launch arrays and
    the arguments unchanged. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (last_boundary m ρ c), (h c).2⟩)
    (Cert.KernelIdeal.Whole.run_result m ρ)

end Cert.KernelIdeal.Folded

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.RefLayers.lean ====
/-
  The reference's two dense stages are the two layers.

  The reference scales the kept entries by two before each matrix product, where the layers are written with the
  product's entries scaled afterwards: the law of the layers' module moves the factor across the sum. The
  reference's bias is the bias vector laid out as a row and repeated down the rows.
-/
import proofs.«130245_j82068235092421_2_alg».proof.Proof.Gen.ReferenceIdeal
import proofs.«130245_j82068235092421_2_alg».proof.Proof.Layers
import proofs.«130245_j82068235092421_2_alg».proof.Proof.LibPlainDot
import proofs.«130245_j82068235092421_2_alg».proof.Proof.LibBroadcast
import Idealize.ShloMosaic.Lib.Pipeline.Value
import Idealize.ShloMosaic.Lib.ValueIdx

noncomputable section

open scoped BigOperators

namespace Cert.ReferenceIdeal.Dense

open Cert.ReferenceIdeal Cert.ReferenceIdeal.Gen Idealize.ShloMosaic Idealize.ShloMosaic.ValueIdx

/-- Both products' dimension numbers are a plain matrix product's. -/
theorem plain1 : Cert.PlainDot.IsPlain dot_S100000x512_S512x16_S100000x16_1_0_0_1_n_n := ⟨rfl, rfl, rfl, rfl, rfl, rfl⟩
theorem plain2 : Cert.PlainDot.IsPlain dot_S100000x16_S16x40_S100000x40_1_0_0_1_n_n := ⟨rfl, rfl, rfl, rfl, rfl, rfl⟩

/-- A one-row matrix repeated down N rows holds the row's entry c at (n, c). -/
theorem row_down {α : Type} {N C : Nat} (hC : C ≠ 1) (r : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h r (ix2 n c) = r (ix2 (0 : Fin 1) c) :=
  broadcastInDim_apply ![0, 1] h r (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])

/-- The reference's first dense stage: the kept entries of x doubled, times the first weights. -/
def stage1 (x d : FVec Ideal S100000x512 .f32) (w : FVec Ideal S512x16 .f32) : FVec Ideal S100000x16 .f32 :=
  Host.dotGeneral dot_S100000x512_S512x16_S100000x16_1_0_0_1_n_n none
    (mulf (select (cmpf .olt d (broadcastInDim S100000x512 ![] bcast_S_S100000x512 (constant (F := Ideal) S_ .f32 0x3F000000#32)))
        x (broadcastInDim S100000x512 ![] bcast_S_S100000x512 (id (constant (F := Ideal) S_ .f32 0x00000000#32))))
      (broadcastInDim S100000x512 ![] bcast_S_S100000x512 (constant (F := Ideal) S_ .f32 0x40000000#32))) w

/-- The reference's second dense stage: the hidden features plus the bias, clipped below at zero, kept and doubled,
    times the second weights. -/
def stage2 (h : FVec Ideal S100000x16 .f32) (b : FVec Ideal S16 .f32) (u : FVec Ideal S100000x16 .f32)
    (w : FVec Ideal S16x40 .f32) : FVec Ideal S100000x40 .f32 :=
  Host.dotGeneral dot_S100000x16_S16x40_S100000x40_1_0_0_1_n_n none
    (mulf (select (cmpf .olt u (broadcastInDim S100000x16 ![] bcast_S_S100000x16 (constant (F := Ideal) S_ .f32 0x3F000000#32)))
        (maximumf (addf h (broadcastInDim S100000x16 ![0, 1] bcast_S1x16_S100000x16_0_1 (broadcastInDim S1x16 ![1] bcast_S16_S1x16_1 b)))
          (broadcastInDim S100000x16 ![] bcast_S_S100000x16 (constant (F := Ideal) S_ .f32 0x00000000#32)))
        (broadcastInDim S100000x16 ![] bcast_S_S100000x16 (id (constant (F := Ideal) S_ .f32 0x00000000#32))))
      (broadcastInDim S100000x16 ![] bcast_S_S100000x16 (constant (F := Ideal) S_ .f32 0x40000000#32))) w

/-- The first stage is the first layer. -/
theorem stage1_eq (x d : FVec Ideal S100000x512 .f32) (w : FVec Ideal S512x16 .f32) :
    stage1 x d w = Cert.Layers.layer1 (R := 100000) x d w := by
  funext i
  obtain ⟨n, c, rfl⟩ : ∃ (n : Fin 100000) (c : Fin 16), i = ix2 n c := ⟨i 0, i 1, eq_ix2 i⟩
  rw [Cert.Layers.layer1_apply]
  unfold stage1 Cert.Layers.dense1
  refine (Cert.PlainDot.dotGeneral_apply plain1 none _ w n c).trans ?_
  rw [Cert.Layers.scale_sum]
  refine Finset.sum_congr rfl fun q _ => ?_
  refine congrArg (· * w (ix2 q c)) ?_
  simp only [mulf_apply, select_apply, cmpf_apply, Cert.Bcast.scalar_apply]
  rfl

/-- The second stage is the second layer, the bias as the row the reference lays it out in. -/
theorem stage2_eq (h : FVec Ideal S100000x16 .f32) (b : FVec Ideal S16 .f32) (u : FVec Ideal S100000x16 .f32)
    (w : FVec Ideal S16x40 .f32) :
    stage2 h b u w = Cert.Layers.layer2 (R := 100000) h (broadcastInDim S1x16 ![1] bcast_S16_S1x16_1 b) u w := by
  funext i
  obtain ⟨n, c, rfl⟩ : ∃ (n : Fin 100000) (c : Fin 40), i = ix2 n c := ⟨i 0, i 1, eq_ix2 i⟩
  rw [Cert.Layers.layer2_apply]
  unfold stage2 Cert.Layers.dense2
  refine (Cert.PlainDot.dotGeneral_apply plain2 none _ w n c).trans ?_
  rw [Cert.Layers.scale_sum]
  refine Finset.sum_congr rfl fun q _ => ?_
  refine congrArg (· * w (ix2 q c)) ?_
  unfold Cert.Layers.act
  simp only [mulf_apply, select_apply, cmpf_apply, maximumf_apply, addf_apply, Cert.Bcast.scalar_apply,
    row_down (by decide : (16 : ℕ) ≠ 1)]
  rfl

end Cert.ReferenceIdeal.Dense

end
-- ==== Proof.RefValue.lean ====
/-
  The reference's result as one function of its arguments.

  The reference is a straight line of host operations: the first dense stage, the aggregation over the edges, the
  bias, clipping and second dense stage, the second aggregation and the output bias. The two aggregations and the
  output bias are carried as functions of the arrays they read and are never opened; the two dense stages are the
  two layers.
-/
import proofs.«130245_j82068235092421_2_alg».proof.Proof.Gen.ReferenceIdeal.Run
import proofs.«130245_j82068235092421_2_alg».proof.Proof.RefLayers

set_option maxRecDepth 16384

noncomputable section

namespace Cert.ReferenceIdeal.Folded

open Cert.ReferenceIdeal Cert.ReferenceIdeal.Gen Idealize.ShloMosaic Idealize.ShloMosaic.TcCoe Idealize.SL.Sem

section Stretches
variable {F : FTy → Type} [FloatOps F]

/-- The column index of each edge, one that is negative counted from the end. -/
def wrapped (ec : (⟨S3200000, .i32⟩ : BufTy).Contents (Elt F)) : (⟨S3200000, .i32⟩ : BufTy).Contents (Elt F) :=
  select (cmpi .slt ec (broadcastInDim S3200000 ![] bcast_S_S3200000 (constantI S_ 32 0#32)))
    (addi ec (broadcastInDim S3200000 ![] bcast_S_S3200000 (constantI S_ 32 100000#32))) ec

/-- The aggregation of 16-wide features over the edges. -/
def aggregate16 (ev : (⟨S3200000, .f32⟩ : BufTy).Contents (Elt F)) (er ec : (⟨S3200000, .i32⟩ : BufTy).Contents (Elt F)) (h : (⟨S100000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 er)
    (mulf (broadcastInDim S3200000x16 ![0, 1] bcast_S3200000x1_S3200000x16_0_1 (broadcastInDim S3200000x1 ![0] bcast_S3200000_S3200000x1_0 ev))
      (Host.gather gather_S100000x16_S3200000x1_S3200000x16_1_0_n_n_0_1_116 h
        (broadcastInDim S3200000x1 ![0] bcast_S3200000_S3200000x1_0 (wrapped ec))))

/-- The aggregation of 40-wide features over the edges. -/
def aggregate40 (ev : (⟨S3200000, .f32⟩ : BufTy).Contents (Elt F)) (er ec : (⟨S3200000, .i32⟩ : BufTy).Contents (Elt F)) (o : (⟨S100000x40, .f32⟩ : BufTy).Contents (Elt F)) :
    (⟨S100000x40, .f32⟩ : BufTy).Contents (Elt F) :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 er)
    (mulf (broadcastInDim S3200000x40 ![0, 1] bcast_S3200000x1_S3200000x40_0_1 (broadcastInDim S3200000x1 ![0] bcast_S3200000_S3200000x1_0 ev))
      (Host.gather gather_S100000x40_S3200000x1_S3200000x40_1_0_n_n_0_1_140 o
        (broadcastInDim S3200000x1 ![0] bcast_S3200000_S3200000x1_0 (wrapped ec))))

/-- The output bias added to every row. -/
def biased (b : (⟨S40, .f32⟩ : BufTy).Contents (Elt F)) (o : (⟨S100000x40, .f32⟩ : BufTy).Contents (Elt F)) : (⟨S100000x40, .f32⟩ : BufTy).Contents (Elt F) :=
  addf o (broadcastInDim S100000x40 ![0, 1] bcast_S1x40_S100000x40_0_1 (broadcastInDim S1x40 ![1] bcast_S40_S1x40_1 b))

end Stretches

/-- The reference's result, as a function of its arguments. -/
def result (x : FVec Ideal S100000x512 .f32) (w1 : FVec Ideal S512x16 .f32) (b1 : FVec Ideal S16 .f32)
    (w2 : FVec Ideal S16x40 .f32) (b2 : FVec Ideal S40 .f32) (ev : FVec Ideal S3200000 .f32)
    (d1 : FVec Ideal S100000x512 .f32) (d2 : FVec Ideal S100000x16 .f32)
    (er ec : (⟨S3200000, .i32⟩ : BufTy).Contents (Elt Ideal)) : FVec Ideal S100000x40 .f32 :=
  biased b2 (aggregate40 ev er ec
    (Cert.ReferenceIdeal.Dense.stage2 (aggregate16 ev er ec (Cert.ReferenceIdeal.Dense.stage1 x d1 w1)) b1 d2 w2))

/-- With the two dense stages read as the two layers. -/
theorem result_eq (x : FVec Ideal S100000x512 .f32) (w1 : FVec Ideal S512x16 .f32) (b1 : FVec Ideal S16 .f32)
    (w2 : FVec Ideal S16x40 .f32) (b2 : FVec Ideal S40 .f32) (ev : FVec Ideal S3200000 .f32)
    (d1 : FVec Ideal S100000x512 .f32) (d2 : FVec Ideal S100000x16 .f32)
    (er ec : (⟨S3200000, .i32⟩ : BufTy).Contents (Elt Ideal)) :
    result x w1 b1 w2 b2 ev d1 d2 er ec
      = biased b2 (aggregate40 ev er ec
          (Cert.Layers.layer2 (R := 100000) (aggregate16 ev er ec (Cert.Layers.layer1 (R := 100000) x d1 w1))
            (broadcastInDim S1x16 ![1] bcast_S16_S1x16_1 b1) d2 w2)) := by
  unfold result
  rw [Cert.ReferenceIdeal.Dense.stage1_eq, Cert.ReferenceIdeal.Dense.stage2_eq]

/-- THE RUN: every weakly fair execution of the reference terminates with its result buffer at that function of the
    launch arrays and the arguments unchanged (the generated run, its term named). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.ReferenceIdeal.Value.run (F := Ideal) m ρ

end Cert.ReferenceIdeal.Folded

end
-- ==== Proof.LibCastBroadcast.lean ====
/-
  A vector placed along one axis of a two-axis array: reshaping and broadcasting agree.

  A vector of length n laid out as the column [n, 1] by a reshape is the same array as the vector broadcast to [n, 1]
  along axis 0, and laid out as the row [1, n] the same as the vector broadcast to [1, n] along axis 1: in each
  case entry (r, 0), respectively (0, r), is the vector's entry r. (For n = 1 a broadcast reads a unit axis at
  coordinate 0, which is the same entry; the statements below ask n ≠ 1 only because the broadcast rule branches
  on it.) Nothing here depends on a program.
-/
import Idealize.ShloMosaic.Lib.Pipeline.Value
import Idealize.ShloMosaic.Lib.ValueLayout
import Idealize.ShloMosaic.Lib.ValueIdx

noncomputable section

namespace Cert.CastBroadcast

open Idealize.ShloMosaic Idealize.ShloMosaic.ValueIdx

/-- The column [n, 1] of a vector: by reshape or by broadcast along axis 0. -/
theorem col_eq {α : Type} {n : ℕ} (hn : n ≠ 1) (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨r, u, rfl⟩ : ∃ (r : Fin n) (u : Fin 1), i = ix2 r u := ⟨i 0, i 1, eq_ix2 i⟩
  have e1 : shapeCast ⟨2, ![n, 1]⟩ v h (ix2 r u) = v (ix1 r) :=
    shapeCast_apply v h _ _ (by
      have hu : u.val = 0 := by omega
      rw [Shape.rowMajor_val_two, Shape.rowMajor_val_one]
      show r.val = r.val * 1 + u.val
      rw [hu, Nat.mul_one, Nat.add_zero])
  have e2 : broadcastInDim ⟨2, ![n, 1]⟩ ![0] h' v (ix2 r u) = v (ix1 r) :=
    broadcastInDim_apply ![0] h' v (ix2 r u) (ix1 r) (fun a => by
      match a with
      | ⟨0, _⟩ => show r.val = if n = 1 then 0 else r.val; rw [if_neg hn])
  rw [e1, e2]

/-- The row [1, n] of a vector: by reshape or by broadcast along axis 1. -/
theorem row_eq {α : Type} {n : ℕ} (hn : n ≠ 1) (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨u, r, rfl⟩ : ∃ (u : Fin 1) (r : Fin n), i = ix2 u r := ⟨i 0, i 1, eq_ix2 i⟩
  have e1 : shapeCast ⟨2, ![1, n]⟩ v h (ix2 u r) = v (ix1 r) :=
    shapeCast_apply v h _ _ (by
      have hu : u.val = 0 := by omega
      rw [Shape.rowMajor_val_two, Shape.rowMajor_val_one]
      show r.val = u.val * n + r.val
      rw [hu, Nat.zero_mul, Nat.zero_add])
  have e2 : broadcastInDim ⟨2, ![1, n]⟩ ![1] h' v (ix2 u r) = v (ix1 r) :=
    broadcastInDim_apply ![1] h' v (ix2 u r) (ix1 r) (fun a => by
      match a with
      | ⟨0, _⟩ => show r.val = if n = 1 then 0 else r.val; rw [if_neg hn])
  rw [e1, e2]

end Cert.CastBroadcast

end
-- ==== Proof.Bridge.lean ====
/-
  The two programs compute one function.

  Both results are the output bias added to the aggregate of the second layer of the aggregate of the first layer.
  The aggregations and the output bias are the same host operations in both programs. The hidden bias reaches the
  second layer as a row: one program reshapes the vector to a row, the other broadcasts it along the row's axis,
  and the two rows are the same array.
-/
import proofs.«130245_j82068235092421_2_alg».proof.Proof.KernelValue
import proofs.«130245_j82068235092421_2_alg».proof.Proof.RefValue
import proofs.«130245_j82068235092421_2_alg».proof.Proof.LibCastBroadcast

set_option maxRecDepth 16384

noncomputable section

namespace Cert.Bridge

open Idealize.ShloMosaic

/-- The hidden bias as a row, by reshape or by broadcast. -/
theorem bias_row (b1 : FVec Ideal Cert.KernelIdeal.S16 .f32) :
    Cert.KernelIdeal.Folded.biasRow (F := Ideal) b1
      = broadcastInDim Cert.ReferenceIdeal.S1x16 ![1] Cert.ReferenceIdeal.Facts₀.bcast_S16_S1x16_1 b1 :=
  Cert.CastBroadcast.row_eq (by decide) b1 _ _

/-- The reference's result is the kernel program's, as functions of the same arguments. -/
theorem same_result (x : FVec Ideal Cert.KernelIdeal.S100000x512 .f32) (w1 : FVec Ideal Cert.KernelIdeal.S512x16 .f32)
    (b1 : FVec Ideal Cert.KernelIdeal.S16 .f32) (w2 : FVec Ideal Cert.KernelIdeal.S16x40 .f32)
    (b2 : FVec Ideal Cert.KernelIdeal.S40 .f32) (ev : FVec Ideal Cert.KernelIdeal.S3200000 .f32)
    (d1 : FVec Ideal Cert.KernelIdeal.S100000x512 .f32) (d2 : FVec Ideal Cert.KernelIdeal.S100000x16 .f32)
    (er ec : (⟨Cert.KernelIdeal.S3200000, .i32⟩ : BufTy).Contents (Elt Ideal)) :
    Cert.ReferenceIdeal.Folded.result x w1 b1 w2 b2 ev d1 d2 er ec
      = Cert.KernelIdeal.Folded.biased (F := Ideal) b2 (Cert.KernelIdeal.Folded.aggregate40 (F := Ideal) ev er ec
          (Cert.Layers.layer2 (R := 100000)
            (Cert.KernelIdeal.Folded.aggregate16 (F := Ideal) ev er ec (Cert.Layers.layer1 (R := 100000) x d1 w1))
            (Cert.KernelIdeal.Folded.biasRow (F := Ideal) b1) d2 w2)) := by
  rw [Cert.ReferenceIdeal.Folded.result_eq, bias_row]
  rfl

end Cert.Bridge

end
-- ==== Proof.lean ====
/-
  A two-layer graph network with dropout, as a gridded-kernel program and as a plain host program: the two compute
  the same array on the extended reals.

  Each layer drops the entries whose uniform draw is not below one half, multiplies by a weight matrix and scales
  by two; between the layers and after them the features are aggregated over the graph's edges, the hidden bias is
  added and the features clipped below at zero, and the output bias is added at the end. The kernel program does
  the two matrix products in kernels over blocks of 2000 rows and scales the products' entries; the host program
  scales the kept entries before the products. The factor two is a non-negative number other than +∞, so it moves
  across each product's finite sum whatever the summands are, and no finiteness of the inputs is used. The
  aggregations and the output bias are the same host operations in both programs and are carried unopened.

  The modules: the layers and the law (Layers); what each kernel body stores (KernelBodies); each kernel's output
  array after its run (FirstArray, SecondArray); the kernel program's run with its result named and read back to one
  function of the arguments (KernelRun, KernelValue); the host program's dense stages and its result (RefLayers,
  RefValue); the two results are one function (Bridge).
-/
import proofs.«130245_j82068235092421_2_alg».proof.Defs
import proofs.«130245_j82068235092421_2_alg».proof.Proof.Gen.Kernel
import proofs.«130245_j82068235092421_2_alg».proof.Proof.Gen.Kernel.Skeleton
import proofs.«130245_j82068235092421_2_alg».proof.Proof.Gen.Kernel.Launch
import proofs.«130245_j82068235092421_2_alg».proof.Proof.Gen.Kernel.Points
import proofs.«130245_j82068235092421_2_alg».proof.Proof.Gen.Kernel.Frame
import proofs.«130245_j82068235092421_2_alg».proof.Proof.Gen.KernelIdeal
import proofs.«130245_j82068235092421_2_alg».proof.Proof.Gen.KernelIdeal.Skeleton
import proofs.«130245_j82068235092421_2_alg».proof.Proof.Gen.KernelIdeal.Launch
import proofs.«130245_j82068235092421_2_alg».proof.Proof.Gen.KernelIdeal.Points
import proofs.«130245_j82068235092421_2_alg».proof.Proof.Gen.KernelIdeal.Frame
import proofs.«130245_j82068235092421_2_alg».proof.Proof.Gen.ReferenceIdeal
import proofs.«130245_j82068235092421_2_alg».proof.Proof.Gen.Pre_finite_inputs
import proofs.«130245_j82068235092421_2_alg».proof.Proof.Gen.ReferenceIdeal.Run
import proofs.«130245_j82068235092421_2_alg».proof.Proof.KernelValue
import proofs.«130245_j82068235092421_2_alg».proof.Proof.RefValue
import proofs.«130245_j82068235092421_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The host program runs and leaves its arguments as launched: its run, the result dropped. -/
theorem frame_reference : Cert.frame_ReferenceIdeal := fun m ρ _ =>
  (θ_run Cert.ReferenceIdeal.defs _ _).mono (fun _ h c => (h c).2) (Cert.ReferenceIdeal.Folded.run m ρ)

/-- Nothing of the kernel program was rewritten for its reading on the extended reals. -/
theorem preserves : Cert.preserves_Kernel_KernelIdeal := trivial

/-- From memories agreeing on the arguments the two programs end with the same result: the kernel program's run
    ends at its function of the arguments, the host program's at its own, and the two are one function. -/
theorem algebraic : Cert.algebraic_KernelIdeal_ReferenceIdeal := by
  intro m ρ m' ρ' _ hagree
  refine ⟨fun c => Cert.KernelIdeal.Folded.result m c, Cert.KernelIdeal.Folded.run m ρ, ?_⟩
  refine (θ_run Cert.ReferenceIdeal.defs _ _).mono (fun _ h c => ⟨(h c).1.trans ?_, (h c).2⟩)
    (Cert.ReferenceIdeal.Folded.run m' ρ')
  obtain ⟨a0, a1, a2, a3, a4, a5, a6, a7, a8, a9⟩ := hagree c
  rw [a0, a1, a2, a3, a4, a5, a6, a7, a8, a9]
  exact Cert.Bridge.same_result _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
